-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S2x1600000 32) (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : IVec S1x1600000 32 := (extractStridedSlice S1x1600000 ![1, 0] · slices_S2x1600000_S1x1600000_1_0) main_arg1
  let main_v25 : IVec S1600000 32 := shapeCast S1600000 main_v24 shapeCasts_S1x1600000_S1600000
  let main_c_8 : IVec S_ 32 := constantI S_ 32 0#32
  let main_v26 : IVec S1600000 32 := broadcastInDim S1600000 ![] bcast_S_S1600000 main_c_8
  let main_v27 : IVec S1600000 1 := cmpi .sge main_v25 main_v26
  let main_c_9 : IVec S_ 1 := constantI S_ 1 1#1
  let main_v28 : IVec S_ 1 := (fun x v => Host.reduce IntOp.andi x v reducesTo_S1600000_S_d0 h_S_) main_v27 main_c_9
  let main_v29 : IVec S_ 1 := andi main_v23 main_v28
  main_v29

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S50000x128 : Shape := ⟨2, ![50000, 128]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩

abbrev nBuf : Space → Nat
  | .hbm => 45
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S100000x64, .f32⟩
  | .hbm, ⟨28, _⟩ => ⟨S50000x128, .f32⟩
  | .hbm, ⟨29, _⟩ => ⟨S_, .f32⟩
  | .hbm, ⟨30, _⟩ => ⟨S64x64, .f32⟩
  | .hbm, ⟨31, _⟩ => ⟨S64x128, .f32⟩
  | .hbm, ⟨32, _⟩ => ⟨S64x128, .f32⟩
  | .hbm, ⟨33, _⟩ => ⟨S128x128, .f32⟩
  | .hbm, ⟨34, _⟩ => ⟨S_, .f32⟩
  | .hbm, ⟨35, _⟩ => ⟨S64x64, .f32⟩
  | .hbm, ⟨36, _⟩ => ⟨S64x128, .f32⟩
  | .hbm, ⟨37, _⟩ => ⟨S64x128, .f32⟩
  | .hbm, ⟨38, _⟩ => ⟨S128x128, .f32⟩
  | .hbm, ⟨39, _⟩ => ⟨S128, .f32⟩
  | .hbm, ⟨40, _⟩ => ⟨S128, .f32⟩
  | .hbm, ⟨41, _⟩ => ⟨S1x128, .f32⟩
  | .hbm, ⟨42, _⟩ => ⟨S1x128, .f32⟩
  | .hbm, ⟨43, _⟩ => ⟨S50000x128, .f32⟩
  | .hbm, ⟨44, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000x64_S50000x128 : S100000x64.ShapeCasts S50000x128
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S50000x128_S100000x64 : S50000x128.ShapeCasts S100000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 35
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S100000x64, .f32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibKeepdims.lean ====
/-
  Layout operations of a two-axis block read at coordinates: the casts between a block [1, 1, a, b] and its matrix
  [a, b], and the column forms a row reduction kept as a column needs — a vector [a] cast to a column [a, 1], and a
  column [a, 1] broadcast along b lanes. Each is the general read-at-an-index lemma of the operation with both indices
  written by coordinates, the coordinates' arithmetic done once here.
-/
import Idealize.ShloMosaic.Lib.Pipeline.Value
import Idealize.ShloMosaic.Lib.ValueIdx

namespace Cert.LibKeepdims

open Idealize.ShloMosaic Idealize.ShloMosaic.ValueIdx

variable {α : Type}

/-- A [1, 1, a, b] block cast to the matrix [a, b] reads, at (i, j), the block at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A matrix [a, b] cast to the block [1, 1, a, b] reads, at (u, v, i, j), the matrix at (i, j), whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A vector [a] cast to the column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along b lanes reads, at (i, j), the column at (i, 0). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- So a vector [a] kept as a column and broadcast along b lanes reads, at (i, j), the vector at i. -/
theorem column_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (i : Fin a) (j : Fin b) :
    broadcastTo ⟨2, ![a, b]⟩ (shapeCast ⟨2, ![a, 1]⟩ x h₁) h₂ (ix2 i j) = x (ix1 i) :=
  (broadcastTo_a1_ab_apply _ h₂ i j).trans (shapeCast_a_a1_apply x h₁ i 0)

end Cert.LibKeepdims
-- ==== Proof.LibDenseLayer.lean ====
/-
  A dense layer with per-row scales, read at a row and a column, at the extended reals.

  Two arrangements of the same arithmetic are read here at an index (r, q) and found to be one function of the operands:
  the fused body of a row-block kernel — scale the rows of a block, multiply by a weight matrix on the matrix unit into a
  zero accumulator, add a bias row, clamp below at zero, then either scale the rows again or multiply by a second weight
  matrix and add a second bias row — and the same steps written as whole-array host operations (`dot_general`,
  `broadcast_in_dim` of the scale vectors and of the bias vectors). At the extended reals a change of float format is
  the identity and both products are the plain sum over the contracted coordinate, so no algebraic law is needed: both
  arrangements unfold to `hidAt` below, term by term.
-/
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws
import proofs.«110859_j31190052504404_2_alg».proof.Proof.LibKeepdims

noncomputable section

namespace Cert.LibDenseLayer

open Idealize.ShloMosaic Idealize.ShloMosaic.ValueIdx Cert.LibKeepdims

/-! ## The layout operations of the two arrangements, read at coordinates -/

section Layout
variable {α : Type}

/-- A vector [a] placed in dimension 0 of a column [a, 1] reads, at (i, u), the vector at i. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column [a, 1] placed in dimensions (0, 1) of [a, b] reads, at (i, j), the column at (i, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ => rfl

/-- A vector [b] placed in dimension 1 of a row [1, b] reads, at (u, j), the vector at j. -/
theorem broadcastInDim_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A row [1, b] placed in dimensions (0, 1) of [a, b] reads, at (i, j), the row at (0, j). -/
theorem broadcastInDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ => rfl
  | ⟨1, _⟩ =>
    show j.val = if b = 1 then 0 else j.val
    split
    · have := j.isLt; omega
    · rfl

end Layout

/-! ## The matrix unit's plain product into a zero accumulator -/

/-- The plain product of an m×k by a k×n matrix on the matrix unit, into the zero accumulator, read at (a, b), is the
    sum over the contracted coordinate of the products of the entries: the host's product of the same operands. -/
theorem matmul_plain_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  ((Ideal.matmul_constant_zero_apply (DotDims.plain m k n) prec A B (ix2 a b)).trans
    (Ideal.dotGeneral_apply (DotDims.plain m k n) prec .single A B (ix2 a b)).symm).trans
    (StackMember.dotGeneral_plain_apply prec A B a b)

/-! ## The layer, entry by entry -/

section Layer
variable {n d h c : ℕ}

/-- The hidden activation at row r and column q: the row of `A` scaled by its entry of the column `s`, multiplied by
    `W`, the bias row `b` added, clamped below at `z`. -/
def hidAt (A : (⟨2, ![n, d]⟩ : Shape).Idx → EReal) (s : (⟨2, ![n, 1]⟩ : Shape).Idx → EReal)
    (W : (⟨2, ![d, h]⟩ : Shape).Idx → EReal) (b : (⟨2, ![1, h]⟩ : Shape).Idx → EReal) (z : EReal) (r : Fin n) (q : Fin h) : EReal :=
  max ((∑ k : Fin d, (A (ix2 r k) * s (ix2 r (0 : Fin 1))) * W (ix2 k q)) + b (ix2 (0 : Fin 1) q)) z

/-- The hidden activation with each row scaled again by its entry of the column `u`. -/
def scaledLayer (A : (⟨2, ![n, d]⟩ : Shape).Idx → EReal) (s u : (⟨2, ![n, 1]⟩ : Shape).Idx → EReal)
    (W : (⟨2, ![d, h]⟩ : Shape).Idx → EReal) (b : (⟨2, ![1, h]⟩ : Shape).Idx → EReal) (z : EReal) :
    (⟨2, ![n, h]⟩ : Shape).Idx → EReal :=
  fun i => hidAt A s W b z (i 0) (i 1) * u (ix2 (i 0) (0 : Fin 1))

/-- The hidden activation multiplied by a second matrix `Wf`, the bias row `bf` added. -/
def classifiedLayer (A : (⟨2, ![n, d]⟩ : Shape).Idx → EReal) (s : (⟨2, ![n, 1]⟩ : Shape).Idx → EReal)
    (W : (⟨2, ![d, h]⟩ : Shape).Idx → EReal) (b : (⟨2, ![1, h]⟩ : Shape).Idx → EReal)
    (Wf : (⟨2, ![h, c]⟩ : Shape).Idx → EReal) (bf : (⟨2, ![1, c]⟩ : Shape).Idx → EReal) (z : EReal) :
    (⟨2, ![n, c]⟩ : Shape).Idx → EReal :=
  fun i => (∑ k : Fin h, hidAt A s W b z (i 0) k * Wf (ix2 k (i 1))) + bf (ix2 (0 : Fin 1) (i 1))

theorem scaledLayer_apply (A : (⟨2, ![n, d]⟩ : Shape).Idx → EReal) (s u : (⟨2, ![n, 1]⟩ : Shape).Idx → EReal)
    (W : (⟨2, ![d, h]⟩ : Shape).Idx → EReal) (b : (⟨2, ![1, h]⟩ : Shape).Idx → EReal) (z : EReal) (r : Fin n) (q : Fin h) :
    scaledLayer A s u W b z (ix2 r q) = hidAt A s W b z r q * u (ix2 r (0 : Fin 1)) := rfl

theorem classifiedLayer_apply (A : (⟨2, ![n, d]⟩ : Shape).Idx → EReal) (s : (⟨2, ![n, 1]⟩ : Shape).Idx → EReal)
    (W : (⟨2, ![d, h]⟩ : Shape).Idx → EReal) (b : (⟨2, ![1, h]⟩ : Shape).Idx → EReal)
    (Wf : (⟨2, ![h, c]⟩ : Shape).Idx → EReal) (bf : (⟨2, ![1, c]⟩ : Shape).Idx → EReal) (z : EReal) (r : Fin n) (q : Fin c) :
    classifiedLayer A s W b Wf bf z (ix2 r q) = (∑ k : Fin h, hidAt A s W b z r k * Wf (ix2 k q)) + bf (ix2 (0 : Fin 1) q) := rfl

end Layer

/-! ## The two arrangements -/

section Arrangements
variable {n d h c : ℕ}

/-- THE FUSED BODY's hidden activation: rows scaled by a column, rounded to bf16 (the identity here), multiplied on the
    matrix unit by the rounded weight into a zero accumulator, the bias row added, clamped below at the zero splat. -/
theorem fusedHidden_apply
    (x0 : FVec Ideal ⟨2, ![n, d]⟩ .f32) (x1 : FVec Ideal ⟨2, ![n, 1]⟩ .f32) (x3 : FVec Ideal ⟨2, ![d, h]⟩ .f32)
    (x4 : FVec Ideal ⟨2, ![1, h]⟩ .f32)
    (c0 : (⟨2, ![n, d]⟩ : Shape).ShapeCasts ⟨2, ![n, d]⟩) (c1 : (⟨2, ![n, 1]⟩ : Shape).ShapeCasts ⟨2, ![n, 1]⟩)
    (b1 : (⟨2, ![n, 1]⟩ : Shape).Broadcasts ⟨2, ![n, d]⟩) (lt : FTy.bits .bf16 < FTy.bits .f32)
    (c4 : (⟨2, ![1, h]⟩ : Shape).ShapeCasts ⟨2, ![1, h]⟩) (b4 : (⟨2, ![1, h]⟩ : Shape).Broadcasts ⟨2, ![n, h]⟩)
    (r : Fin n) (q : Fin h) :
    (maximumf (addf (matmul (DotDims.plain n d h) none
          (truncf .bf16 (mulf (shapeCast ⟨2, ![n, d]⟩ x0 c0) (broadcastTo ⟨2, ![n, d]⟩ (shapeCast ⟨2, ![n, 1]⟩ x1 c1) b1)) lt)
          (truncf .bf16 x3 lt) (constant ⟨2, ![n, h]⟩ .f32 0x00000000#32))
        (broadcastTo ⟨2, ![n, h]⟩ (shapeCast ⟨2, ![1, h]⟩ x4 c4) b4))
      (broadcast ⟨2, ![n, h]⟩ (Scalar.ofBits .f32 0x00000000#32)) : FVec Ideal ⟨2, ![n, h]⟩ .f32) (ix2 r q)
    = hidAt x0 x1 x3 x4 (Ideal.ofBits .f32 0x00000000#32) r q := by
  simp only [shapeCast_self]
  rw [maximumf_apply, addf_apply, broadcast_apply, broadcastTo_1b_ab_apply, matmul_plain_apply]
  unfold hidAt
  refine congrArg (max · _) (congrArg (· + x4 (ix2 (0 : Fin 1) q)) (Finset.sum_congr rfl fun k _ => ?_))
  rw [truncf_apply, truncf_apply, mulf_apply, broadcastTo_a1_ab_apply]

/-- THE FUSED BODY that scales the rows again by a second column and rounds the result to bf16. -/
theorem fusedScaled_apply
    (x0 : FVec Ideal ⟨2, ![n, d]⟩ .f32) (x1 x2 : FVec Ideal ⟨2, ![n, 1]⟩ .f32) (x3 : FVec Ideal ⟨2, ![d, h]⟩ .f32)
    (x4 : FVec Ideal ⟨2, ![1, h]⟩ .f32)
    (c0 : (⟨2, ![n, d]⟩ : Shape).ShapeCasts ⟨2, ![n, d]⟩) (c1 : (⟨2, ![n, 1]⟩ : Shape).ShapeCasts ⟨2, ![n, 1]⟩)
    (b1 : (⟨2, ![n, 1]⟩ : Shape).Broadcasts ⟨2, ![n, d]⟩) (lt : FTy.bits .bf16 < FTy.bits .f32)
    (c4 : (⟨2, ![1, h]⟩ : Shape).ShapeCasts ⟨2, ![1, h]⟩) (b4 : (⟨2, ![1, h]⟩ : Shape).Broadcasts ⟨2, ![n, h]⟩)
    (b2 : (⟨2, ![n, 1]⟩ : Shape).Broadcasts ⟨2, ![n, h]⟩) (r : Fin n) (q : Fin h) :
    (truncf .bf16 (mulf (maximumf (addf (matmul (DotDims.plain n d h) none
            (truncf .bf16 (mulf (shapeCast ⟨2, ![n, d]⟩ x0 c0) (broadcastTo ⟨2, ![n, d]⟩ (shapeCast ⟨2, ![n, 1]⟩ x1 c1) b1)) lt)
            (truncf .bf16 x3 lt) (constant ⟨2, ![n, h]⟩ .f32 0x00000000#32))
          (broadcastTo ⟨2, ![n, h]⟩ (shapeCast ⟨2, ![1, h]⟩ x4 c4) b4))
        (broadcast ⟨2, ![n, h]⟩ (Scalar.ofBits .f32 0x00000000#32)))
      (broadcastTo ⟨2, ![n, h]⟩ (shapeCast ⟨2, ![n, 1]⟩ x2 c1) b2)) lt : FVec Ideal ⟨2, ![n, h]⟩ .bf16) (ix2 r q)
    = scaledLayer x0 x1 x2 x3 x4 (Ideal.ofBits .f32 0x00000000#32) (ix2 r q) := by
  rw [truncf_apply, mulf_apply, fusedHidden_apply, broadcastTo_a1_ab_apply, shapeCast_self, scaledLayer_apply]

/-- THE FUSED BODY that rounds the hidden activation to bf16, multiplies it on the matrix unit by a second rounded weight
    into a zero accumulator and adds a second bias row. -/
theorem fusedClassified_apply
    (x0 : FVec Ideal ⟨2, ![n, d]⟩ .f32) (x1 : FVec Ideal ⟨2, ![n, 1]⟩ .f32) (x3 : FVec Ideal ⟨2, ![d, h]⟩ .f32)
    (x4 : FVec Ideal ⟨2, ![1, h]⟩ .f32) (x5 : FVec Ideal ⟨2, ![h, c]⟩ .f32) (x6 : FVec Ideal ⟨2, ![1, c]⟩ .f32)
    (c0 : (⟨2, ![n, d]⟩ : Shape).ShapeCasts ⟨2, ![n, d]⟩) (c1 : (⟨2, ![n, 1]⟩ : Shape).ShapeCasts ⟨2, ![n, 1]⟩)
    (b1 : (⟨2, ![n, 1]⟩ : Shape).Broadcasts ⟨2, ![n, d]⟩) (lt : FTy.bits .bf16 < FTy.bits .f32)
    (c4 : (⟨2, ![1, h]⟩ : Shape).ShapeCasts ⟨2, ![1, h]⟩) (b4 : (⟨2, ![1, h]⟩ : Shape).Broadcasts ⟨2, ![n, h]⟩)
    (c6 : (⟨2, ![1, c]⟩ : Shape).ShapeCasts ⟨2, ![1, c]⟩) (b6 : (⟨2, ![1, c]⟩ : Shape).Broadcasts ⟨2, ![n, c]⟩)
    (r : Fin n) (q : Fin c) :
    (addf (matmul (DotDims.plain n h c) none
        (truncf .bf16 (maximumf (addf (matmul (DotDims.plain n d h) none
              (truncf .bf16 (mulf (shapeCast ⟨2, ![n, d]⟩ x0 c0) (broadcastTo ⟨2, ![n, d]⟩ (shapeCast ⟨2, ![n, 1]⟩ x1 c1) b1)) lt)
              (truncf .bf16 x3 lt) (constant ⟨2, ![n, h]⟩ .f32 0x00000000#32))
            (broadcastTo ⟨2, ![n, h]⟩ (shapeCast ⟨2, ![1, h]⟩ x4 c4) b4))
          (broadcast ⟨2, ![n, h]⟩ (Scalar.ofBits .f32 0x00000000#32))) lt)
        (truncf .bf16 x5 lt) (constant ⟨2, ![n, c]⟩ .f32 0x00000000#32))
      (broadcastTo ⟨2, ![n, c]⟩ (shapeCast ⟨2, ![1, c]⟩ x6 c6) b6) : FVec Ideal ⟨2, ![n, c]⟩ .f32) (ix2 r q)
    = classifiedLayer x0 x1 x3 x4 x5 x6 (Ideal.ofBits .f32 0x00000000#32) (ix2 r q) := by
  rw [addf_apply, broadcastTo_1b_ab_apply, shapeCast_self x6, matmul_plain_apply, classifiedLayer_apply]
  refine congrArg (· + x6 (ix2 (0 : Fin 1) q)) (Finset.sum_congr rfl fun k _ => ?_)
  rw [truncf_apply, truncf_apply, fusedHidden_apply]

/-- THE HOST ARRANGEMENT's hidden activation: the rows scaled by a vector placed as a column and spread along the lanes,
    the host's product with the weight, the bias vector placed as a row and spread along the rows, clamped below at the
    zero constant spread over the array. -/
theorem hostHidden_apply
    (A : FVec Ideal ⟨2, ![n, d]⟩ .f32) (s : FVec Ideal ⟨1, ![n]⟩ .f32) (W : FVec Ideal ⟨2, ![d, h]⟩ .f32) (b : FVec Ideal ⟨1, ![h]⟩ .f32)
    (g1 : (⟨1, ![n]⟩ : Shape).BroadcastsInDim ⟨2, ![n, 1]⟩ ![0])
    (g2 : (⟨2, ![n, 1]⟩ : Shape).BroadcastsInDim ⟨2, ![n, d]⟩ ![0, 1])
    (g3 : (⟨1, ![h]⟩ : Shape).BroadcastsInDim ⟨2, ![1, h]⟩ ![1])
    (g4 : (⟨2, ![1, h]⟩ : Shape).BroadcastsInDim ⟨2, ![n, h]⟩ ![0, 1])
    (g5 : (⟨0, ![]⟩ : Shape).BroadcastsInDim ⟨2, ![n, h]⟩ ![])
    (c1 : (⟨1, ![n]⟩ : Shape).ShapeCasts ⟨2, ![n, 1]⟩) (c2 : (⟨1, ![h]⟩ : Shape).ShapeCasts ⟨2, ![1, h]⟩)
    (r : Fin n) (q : Fin h) :
    (maximumf (addf (Host.dotGeneral (DotDims.plain n d h) none
          (mulf A (broadcastInDim ⟨2, ![n, d]⟩ ![0, 1] g2 (broadcastInDim ⟨2, ![n, 1]⟩ ![0] g1 s))) W)
        (broadcastInDim ⟨2, ![n, h]⟩ ![0, 1] g4 (broadcastInDim ⟨2, ![1, h]⟩ ![1] g3 b)))
      (broadcastInDim ⟨2, ![n, h]⟩ ![] g5 (constant ⟨0, ![]⟩ .f32 0x00000000#32)) : FVec Ideal ⟨2, ![n, h]⟩ .f32) (ix2 r q)
    = hidAt A (shapeCast ⟨2, ![n, 1]⟩ s c1) W (shapeCast ⟨2, ![1, h]⟩ b c2) (Ideal.ofBits .f32 0x00000000#32) r q := by
  rw [maximumf_apply, addf_apply, StackMember.dotGeneral_plain_apply, broadcastInDim_1b_ab_apply, broadcastInDim_b_1b_apply]
  unfold hidAt
  rw [shapeCast_a_1a_apply]
  refine congrArg (max · _) (congrArg (· + b (ix1 q)) (Finset.sum_congr rfl fun k _ => ?_))
  rw [mulf_apply, broadcastInDim_a1_ab_apply, broadcastInDim_a_a1_apply, shapeCast_a_a1_apply]

/-- THE HOST ARRANGEMENT with the rows scaled again by a second vector: the same array as the fused body's. -/
theorem hostScaled_eq
    (A : FVec Ideal ⟨2, ![n, d]⟩ .f32) (s u : FVec Ideal ⟨1, ![n]⟩ .f32) (W : FVec Ideal ⟨2, ![d, h]⟩ .f32) (b : FVec Ideal ⟨1, ![h]⟩ .f32)
    (g1 : (⟨1, ![n]⟩ : Shape).BroadcastsInDim ⟨2, ![n, 1]⟩ ![0])
    (g2 : (⟨2, ![n, 1]⟩ : Shape).BroadcastsInDim ⟨2, ![n, d]⟩ ![0, 1])
    (g2' : (⟨2, ![n, 1]⟩ : Shape).BroadcastsInDim ⟨2, ![n, h]⟩ ![0, 1])
    (g3 : (⟨1, ![h]⟩ : Shape).BroadcastsInDim ⟨2, ![1, h]⟩ ![1])
    (g4 : (⟨2, ![1, h]⟩ : Shape).BroadcastsInDim ⟨2, ![n, h]⟩ ![0, 1])
    (g5 : (⟨0, ![]⟩ : Shape).BroadcastsInDim ⟨2, ![n, h]⟩ ![])
    (c1 : (⟨1, ![n]⟩ : Shape).ShapeCasts ⟨2, ![n, 1]⟩) (c2 : (⟨1, ![h]⟩ : Shape).ShapeCasts ⟨2, ![1, h]⟩) :
    (mulf (maximumf (addf (Host.dotGeneral (DotDims.plain n d h) none
            (mulf A (broadcastInDim ⟨2, ![n, d]⟩ ![0, 1] g2 (broadcastInDim ⟨2, ![n, 1]⟩ ![0] g1 s))) W)
          (broadcastInDim ⟨2, ![n, h]⟩ ![0, 1] g4 (broadcastInDim ⟨2, ![1, h]⟩ ![1] g3 b)))
        (broadcastInDim ⟨2, ![n, h]⟩ ![] g5 (constant ⟨0, ![]⟩ .f32 0x00000000#32)))
      (broadcastInDim ⟨2, ![n, h]⟩ ![0, 1] g2' (broadcastInDim ⟨2, ![n, 1]⟩ ![0] g1 u)) : FVec Ideal ⟨2, ![n, h]⟩ .f32)
    = scaledLayer A (shapeCast ⟨2, ![n, 1]⟩ s c1) (shapeCast ⟨2, ![n, 1]⟩ u c1) W (shapeCast ⟨2, ![1, h]⟩ b c2)
        (Ideal.ofBits .f32 0x00000000#32) := by
  funext i
  obtain ⟨r, q, rfl⟩ : ∃ (r : Fin n) (q : Fin h), i = ix2 r q := ⟨i 0, i 1, eq_ix2 i⟩
  rw [mulf_apply, hostHidden_apply A s W b g1 g2 g3 g4 g5 c1 c2, broadcastInDim_a1_ab_apply, broadcastInDim_a_a1_apply,
    scaledLayer_apply, shapeCast_a_a1_apply]

/-- THE HOST ARRANGEMENT followed by the host's product with a second weight and a second bias vector: the same array as
    the fused body's. -/
theorem hostClassified_eq
    (A : FVec Ideal ⟨2, ![n, d]⟩ .f32) (s : FVec Ideal ⟨1, ![n]⟩ .f32) (W : FVec Ideal ⟨2, ![d, h]⟩ .f32) (b : FVec Ideal ⟨1, ![h]⟩ .f32)
    (Wf : FVec Ideal ⟨2, ![h, c]⟩ .f32) (bf : FVec Ideal ⟨1, ![c]⟩ .f32)
    (g1 : (⟨1, ![n]⟩ : Shape).BroadcastsInDim ⟨2, ![n, 1]⟩ ![0])
    (g2 : (⟨2, ![n, 1]⟩ : Shape).BroadcastsInDim ⟨2, ![n, d]⟩ ![0, 1])
    (g3 : (⟨1, ![h]⟩ : Shape).BroadcastsInDim ⟨2, ![1, h]⟩ ![1])
    (g4 : (⟨2, ![1, h]⟩ : Shape).BroadcastsInDim ⟨2, ![n, h]⟩ ![0, 1])
    (g5 : (⟨0, ![]⟩ : Shape).BroadcastsInDim ⟨2, ![n, h]⟩ ![])
    (g6 : (⟨1, ![c]⟩ : Shape).BroadcastsInDim ⟨2, ![1, c]⟩ ![1])
    (g7 : (⟨2, ![1, c]⟩ : Shape).BroadcastsInDim ⟨2, ![n, c]⟩ ![0, 1])
    (c1 : (⟨1, ![n]⟩ : Shape).ShapeCasts ⟨2, ![n, 1]⟩) (c2 : (⟨1, ![h]⟩ : Shape).ShapeCasts ⟨2, ![1, h]⟩)
    (c3 : (⟨1, ![c]⟩ : Shape).ShapeCasts ⟨2, ![1, c]⟩) :
    (addf (Host.dotGeneral (DotDims.plain n h c) none
        (maximumf (addf (Host.dotGeneral (DotDims.plain n d h) none
              (mulf A (broadcastInDim ⟨2, ![n, d]⟩ ![0, 1] g2 (broadcastInDim ⟨2, ![n, 1]⟩ ![0] g1 s))) W)
            (broadcastInDim ⟨2, ![n, h]⟩ ![0, 1] g4 (broadcastInDim ⟨2, ![1, h]⟩ ![1] g3 b)))
          (broadcastInDim ⟨2, ![n, h]⟩ ![] g5 (constant ⟨0, ![]⟩ .f32 0x00000000#32))) Wf)
      (broadcastInDim ⟨2, ![n, c]⟩ ![0, 1] g7 (broadcastInDim ⟨2, ![1, c]⟩ ![1] g6 bf)) : FVec Ideal ⟨2, ![n, c]⟩ .f32)
    = classifiedLayer A (shapeCast ⟨2, ![n, 1]⟩ s c1) W (shapeCast ⟨2, ![1, h]⟩ b c2) Wf (shapeCast ⟨2, ![1, c]⟩ bf c3)
        (Ideal.ofBits .f32 0x00000000#32) := by
  funext i
  obtain ⟨r, q, rfl⟩ : ∃ (r : Fin n) (q : Fin c), i = ix2 r q := ⟨i 0, i 1, eq_ix2 i⟩
  rw [addf_apply, StackMember.dotGeneral_plain_apply, broadcastInDim_1b_ab_apply, broadcastInDim_b_1b_apply,
    classifiedLayer_apply, shapeCast_a_1a_apply]
  refine congrArg (· + bf (ix1 q)) (Finset.sum_congr rfl fun k _ => ?_)
  rw [hostHidden_apply A s W b g1 g2 g3 g4 g5 c1 c2]

end Arrangements

end Cert.LibDenseLayer

end
-- ==== Proof.Spec.lean ====
/-
  The layer's result as one function of its operands, in two arrangements, and the law that joins them.

  A graph-isomorphism layer applies a two-layer perceptron to every row of the aggregated features h (100000 rows of 64):
  out(i, d) = Σ_k max(Σ_j h(i, j) · W1(j, k) + b1(k), z) · W2(k, d) + b2(d)   (`mlp`; z is the clamp's floor).

  The packed arrangement views two consecutive rows as one row of 128 lanes — row r of the packed array holds rows 2r and
  2r + 1 of h side by side — and multiplies by the block-diagonal matrix diag(W, W), adding the bias repeated twice
  (`packed`). Lane 64·s + k of packed row r is column k of row 2r + s (`col`, `row`). A sum over the 128 lanes is the sum
  over the first 64 plus the sum over the last 64 (`sum_lanes`); against a block-diagonal matrix one of the two halves is
  a sum of products with zero, which vanishes on the extended reals whatever the other factor (x · 0 = 0 also at ±∞), so
  the packed result at (r, 64·s + d) is the row-by-row result at (2r + s, d) (`packed_eq_mlp`): no finiteness is used.
-/
import Idealize.ShloMosaic.PureOps.Ideal
import Idealize.ShloMosaic.Lib.ValueIdx

noncomputable section

open scoped BigOperators

namespace Cert.Gin

open Idealize.ShloMosaic Idealize.ShloMosaic.ValueIdx

/-- Lane 64·s + k of a packed row: column k of its s-th half. -/
def col (s : Fin 2) (k : Fin 64) : Fin 128 := ⟨64 * s.val + k.val, by have := s.isLt; have := k.isLt; omega⟩
/-- Row 2r + s of the unpacked array: the s-th half of packed row r. -/
def row (r : Fin 50000) (s : Fin 2) : Fin 100000 := ⟨2 * r.val + s.val, by have := s.isLt; have := r.isLt; omega⟩

@[simp] theorem col_val (s : Fin 2) (k : Fin 64) : (col s k).val = 64 * s.val + k.val := rfl
@[simp] theorem row_val (r : Fin 50000) (s : Fin 2) : (row r s).val = 2 * r.val + s.val := rfl

/-- Every lane is in one of the two halves. -/
theorem exists_col (c : Fin 128) : ∃ (s : Fin 2) (k : Fin 64), c = col s k := by
  have hc := c.isLt
  by_cases h : c.val < 64
  · exact ⟨0, ⟨c.val, h⟩, Fin.ext (by simp)⟩
  · exact ⟨1, ⟨c.val - 64, by omega⟩, Fin.ext (by simp; omega)⟩

/-- Every row is a half of a packed row. -/
theorem exists_row (i : Fin 100000) : ∃ (r : Fin 50000) (s : Fin 2), i = row r s := by
  have hi := i.isLt
  exact ⟨⟨i.val / 2, by omega⟩, ⟨i.val % 2, by omega⟩, Fin.ext (by simp; omega)⟩

/-- A sum over the 128 lanes is the sum over the first half plus the sum over the second. -/
theorem sum_lanes {M : Type*} [AddCommMonoid M] (f : Fin 128 → M) :
    ∑ c : Fin 128, f c = ∑ k : Fin 64, f (col 0 k) + ∑ k : Fin 64, f (col 1 k) := by
  have h := Fin.sum_univ_add (a := 64) (b := 64) (M := M) f
  rw [h]
  congr 1

/-! ## The two arrangements -/

/-- The hidden activation of row i at column k. -/
def hid (h : (⟨2, ![100000, 64]⟩ : Shape).Idx → EReal) (W1 : (⟨2, ![64, 64]⟩ : Shape).Idx → EReal)
    (b1 : (⟨1, ![64]⟩ : Shape).Idx → EReal) (z : EReal) (i : Fin 100000) (k : Fin 64) : EReal :=
  max ((∑ j : Fin 64, h (ix2 i j) * W1 (ix2 j k)) + b1 (ix1 k)) z

/-- The perceptron applied to every row of h. -/
def mlp (h : (⟨2, ![100000, 64]⟩ : Shape).Idx → EReal) (W1 : (⟨2, ![64, 64]⟩ : Shape).Idx → EReal)
    (b1 : (⟨1, ![64]⟩ : Shape).Idx → EReal) (W2 : (⟨2, ![64, 64]⟩ : Shape).Idx → EReal)
    (b2 : (⟨1, ![64]⟩ : Shape).Idx → EReal) (z : EReal) : (⟨2, ![100000, 64]⟩ : Shape).Idx → EReal :=
  fun i => (∑ k : Fin 64, hid h W1 b1 z (i 0) k * W2 (ix2 k (i 1))) + b2 (ix1 (i 1))

/-- The hidden activation of packed row r at lane c. -/
def packedHid (hp : (⟨2, ![50000, 128]⟩ : Shape).Idx → EReal) (Wp1 : (⟨2, ![128, 128]⟩ : Shape).Idx → EReal)
    (bp1 : (⟨2, ![1, 128]⟩ : Shape).Idx → EReal) (z : EReal) (r : Fin 50000) (c : Fin 128) : EReal :=
  max ((∑ j : Fin 128, hp (ix2 r j) * Wp1 (ix2 j c)) + bp1 (ix2 (0 : Fin 1) c)) z

/-- The perceptron in the packed arrangement: 128-lane rows against 128 × 128 matrices and 128-lane bias rows. -/
def packed (hp : (⟨2, ![50000, 128]⟩ : Shape).Idx → EReal) (Wp1 : (⟨2, ![128, 128]⟩ : Shape).Idx → EReal)
    (bp1 : (⟨2, ![1, 128]⟩ : Shape).Idx → EReal) (Wp2 : (⟨2, ![128, 128]⟩ : Shape).Idx → EReal)
    (bp2 : (⟨2, ![1, 128]⟩ : Shape).Idx → EReal) (z : EReal) : (⟨2, ![50000, 128]⟩ : Shape).Idx → EReal :=
  fun i => (∑ k : Fin 128, packedHid hp Wp1 bp1 z (i 0) k * Wp2 (ix2 k (i 1))) + bp2 (ix2 (0 : Fin 1) (i 1))

/-! ## The law -/

/-- A row of 128 lanes against a block-diagonal matrix: only the half of the row in the column's block contributes. -/
theorem sum_blockdiag (u : Fin 128 → EReal) (Wp : (⟨2, ![128, 128]⟩ : Shape).Idx → EReal)
    (W : (⟨2, ![64, 64]⟩ : Shape).Idx → EReal)
    (hW : ∀ (s s' : Fin 2) (j k : Fin 64), Wp (ix2 (col s j) (col s' k)) = if s = s' then W (ix2 j k) else 0)
    (s' : Fin 2) (k : Fin 64) :
    ∑ j : Fin 128, u j * Wp (ix2 j (col s' k)) = ∑ j : Fin 64, u (col s' j) * W (ix2 j k) := by
  rw [sum_lanes]
  simp only [hW]
  have hs : s' = 0 ∨ s' = 1 := by
    have := s'.isLt
    rcases s' with ⟨v, hv⟩
    interval_cases v
    · exact Or.inl rfl
    · exact Or.inr rfl
  rcases hs with rfl | rfl
  · have e1 : ∀ j : Fin 64, u (col 1 j) * (if (1 : Fin 2) = (0 : Fin 2) then W (ix2 j k) else 0) = 0 := fun j => by
      rw [if_neg (by decide), mul_zero]
    have e0 : ∀ j : Fin 64, u (col 0 j) * (if (0 : Fin 2) = (0 : Fin 2) then W (ix2 j k) else 0)
        = u (col 0 j) * W (ix2 j k) := fun j => by rw [if_pos rfl]
    simp only [e0, e1, if_true, Finset.sum_const_zero, add_zero]
  · have e0 : ∀ j : Fin 64, u (col 0 j) * (if (0 : Fin 2) = (1 : Fin 2) then W (ix2 j k) else 0) = 0 := fun j => by
      rw [if_neg (by decide), mul_zero]
    have e1 : ∀ j : Fin 64, u (col 1 j) * (if (1 : Fin 2) = (1 : Fin 2) then W (ix2 j k) else 0)
        = u (col 1 j) * W (ix2 j k) := fun j => by rw [if_pos rfl]
    simp only [e0, e1, if_true, Finset.sum_const_zero, zero_add]

/-- THE LAW: when the packed features hold two rows of h side by side, the packed matrices are block-diagonal with both
    blocks the layer's matrix, and the packed bias rows repeat the layer's bias twice, the packed result at row r, lane
    64·s + d is the row-by-row result at row 2r + s, column d. -/
theorem packed_eq_mlp
    (hp : (⟨2, ![50000, 128]⟩ : Shape).Idx → EReal) (Wp1 : (⟨2, ![128, 128]⟩ : Shape).Idx → EReal)
    (bp1 : (⟨2, ![1, 128]⟩ : Shape).Idx → EReal) (Wp2 : (⟨2, ![128, 128]⟩ : Shape).Idx → EReal)
    (bp2 : (⟨2, ![1, 128]⟩ : Shape).Idx → EReal)
    (h : (⟨2, ![100000, 64]⟩ : Shape).Idx → EReal) (W1 : (⟨2, ![64, 64]⟩ : Shape).Idx → EReal)
    (b1 : (⟨1, ![64]⟩ : Shape).Idx → EReal) (W2 : (⟨2, ![64, 64]⟩ : Shape).Idx → EReal)
    (b2 : (⟨1, ![64]⟩ : Shape).Idx → EReal) (z : EReal)
    (hh : ∀ (r : Fin 50000) (s : Fin 2) (j : Fin 64), hp (ix2 r (col s j)) = h (ix2 (row r s) j))
    (hW1 : ∀ (s s' : Fin 2) (j k : Fin 64), Wp1 (ix2 (col s j) (col s' k)) = if s = s' then W1 (ix2 j k) else 0)
    (hb1 : ∀ (s : Fin 2) (k : Fin 64), bp1 (ix2 (0 : Fin 1) (col s k)) = b1 (ix1 k))
    (hW2 : ∀ (s s' : Fin 2) (j k : Fin 64), Wp2 (ix2 (col s j) (col s' k)) = if s = s' then W2 (ix2 j k) else 0)
    (hb2 : ∀ (s : Fin 2) (k : Fin 64), bp2 (ix2 (0 : Fin 1) (col s k)) = b2 (ix1 k))
    (r : Fin 50000) (s : Fin 2) (d : Fin 64) :
    packed hp Wp1 bp1 Wp2 bp2 z (ix2 r (col s d)) = mlp h W1 b1 W2 b2 z (ix2 (row r s) d) := by
  have hhid : ∀ (s' : Fin 2) (k : Fin 64), packedHid hp Wp1 bp1 z r (col s' k) = hid h W1 b1 z (row r s') k := fun s' k => by
    unfold packedHid hid
    rw [sum_blockdiag (fun j => hp (ix2 r j)) Wp1 W1 hW1 s' k, hb1]
    simp only [hh]
  show (∑ k : Fin 128, packedHid hp Wp1 bp1 z r k * Wp2 (ix2 k (col s d))) + bp2 (ix2 (0 : Fin 1) (col s d))
    = (∑ k : Fin 64, hid h W1 b1 z (row r s) k * W2 (ix2 k d)) + b2 (ix1 d)
  rw [sum_blockdiag (fun k => packedHid hp Wp1 bp1 z r k) Wp2 W2 hW2 s d, hb2]
  simp only [hhid]

end Cert.Gin

end
-- ==== Proof.Body.lean ====
/-
  What the kernel body stores, read at one element of its block.

  The body loads a block of 5000 packed rows, the two packed 128 × 128 matrices and the two packed bias rows, and stores
  (max(x · A + a, 0)) · B + b, every product on the matrix unit into a zero accumulator and every operand rounded to
  bf16 first. On the extended reals a change of format is the identity and the matrix unit's product is the plain sum
  over the contracted lane, so the stored value at row p, lane q is the packed arrangement's entry (`Spec.packed`) of
  whatever arrays the loaded blocks are read from — stated for any arrays that agree with the blocks at the elements read.
-/
import proofs.«110859_j31190052504404_2_alg».proof.Proof.Gen.KernelIdeal.Skeleton
import proofs.«110859_j31190052504404_2_alg».proof.Proof.LibDenseLayer
import proofs.«110859_j31190052504404_2_alg».proof.Proof.Spec
import Idealize.ShloMosaic.Lib.ValueLayout

noncomputable section

open scoped BigOperators

namespace Cert.Gin.Body

open Cert.KernelIdeal Cert.KernelIdeal.Gen Idealize.ShloMosaic Idealize.ShloMosaic.ValueIdx Cert.Gin

/-- The body's two products contract the lanes of a 5000 × 128 block against the rows of a 128 × 128 matrix. -/
theorem dot_plain : dot_S5000x128_S128x128_S5000x128_1_0_0_1_n_n = DotDims.plain 5000 128 128 := rfl

/-- The clamp's floor: the zero word, read as an extended real. -/
abbrev floor0 : EReal := Ideal.ofBits .f32 0x00000000#32

/-- The stored value at row p, lane q of the block. -/
theorem payload_apply (x0 : Vec Ideal S5000x128 .f32) (x1 : Vec Ideal S128x128 .f32) (x2 : Vec Ideal S1x128 .f32)
    (x3 : Vec Ideal S128x128 .f32) (x4 : Vec Ideal S1x128 .f32) (p : Fin 5000) (q : Fin 128) :
    k0_pay1 x0 x1 x2 x3 x4 (ix2 p q)
      = (∑ k : Fin 128, max ((∑ j : Fin 128, x0 (ix2 p j) * x1 (ix2 j k)) + x2 (ix2 (0 : Fin 1) k)) floor0 * x3 (ix2 k q))
        + x4 (ix2 (0 : Fin 1) q) := by
  unfold k0_pay1
  simp only [shapeCast_self]
  rw [dot_plain, addf_apply, broadcastTo_1b_ab_apply, Cert.LibDenseLayer.matmul_plain_apply]
  refine congrArg (· + x4 (ix2 (0 : Fin 1) q)) (Finset.sum_congr rfl fun k _ => ?_)
  rw [truncf_apply, truncf_apply, maximumf_apply, addf_apply, broadcast_apply, broadcastTo_1b_ab_apply,
    Cert.LibDenseLayer.matmul_plain_apply]
  refine congrArg (· * x3 (ix2 k q)) (congrArg (max · _) (congrArg (· + x2 (ix2 (0 : Fin 1) k)) (Finset.sum_congr rfl fun j _ => ?_)))
  rw [truncf_apply, truncf_apply]

/-- So, when the loaded blocks hold row R of a features array and the whole of two matrices and two bias rows, the stored
    value at row p, lane q is the packed arrangement's entry at (R, q). -/
theorem payload_eq_packed (x0 : Vec Ideal S5000x128 .f32) (x1 : Vec Ideal S128x128 .f32) (x2 : Vec Ideal S1x128 .f32)
    (x3 : Vec Ideal S128x128 .f32) (x4 : Vec Ideal S1x128 .f32)
    (A0 : (⟨2, ![50000, 128]⟩ : Shape).Idx → EReal) (A1 : (⟨2, ![128, 128]⟩ : Shape).Idx → EReal)
    (A2 : (⟨2, ![1, 128]⟩ : Shape).Idx → EReal) (A3 : (⟨2, ![128, 128]⟩ : Shape).Idx → EReal)
    (A4 : (⟨2, ![1, 128]⟩ : Shape).Idx → EReal) (p : Fin 5000) (q : Fin 128) (R : Fin 50000)
    (h0 : ∀ j : Fin 128, x0 (ix2 p j) = A0 (ix2 R j))
    (h1 : ∀ j k : Fin 128, x1 (ix2 j k) = A1 (ix2 j k))
    (h2 : ∀ k : Fin 128, x2 (ix2 (0 : Fin 1) k) = A2 (ix2 (0 : Fin 1) k))
    (h3 : ∀ j k : Fin 128, x3 (ix2 j k) = A3 (ix2 j k))
    (h4 : ∀ k : Fin 128, x4 (ix2 (0 : Fin 1) k) = A4 (ix2 (0 : Fin 1) k)) :
    k0_pay1 x0 x1 x2 x3 x4 (ix2 p q) = packed A0 A1 A2 A3 A4 floor0 (ix2 R q) := by
  rw [payload_apply]
  show _ = (∑ k : Fin 128, packedHid A0 A1 A2 floor0 R k * A3 (ix2 k q)) + A4 (ix2 (0 : Fin 1) q)
  unfold packedHid
  simp only [h0, h1, h2, h3, h4]

end Cert.Gin.Body

end
-- ==== Proof.Region.lean ====
/-
  The kernel's result array after the run, as one function of the arrays the region finds.

  The region walks ten grid points; at point t it loads packed rows 5000·t … 5000·t + 4999 of the features, the two whole
  packed matrices and the two whole packed bias rows, and writes the body's result back to the same rows of the output. What
  point t writes back is therefore block t of ONE array, the packed arrangement (`Spec.packed`) of the arrays the region
  finds (`flushed_eq`): a block's row p is row index·5000 + p of the array, and the matrices' and bias rows' blocks are the
  arrays themselves. The ten blocks tile the 50000 rows (row R is in block R / 5000: `cover`), so the output array ends
  holding that arrangement everywhere (`final`). The one host operation after the region views the 50000 × 128 array as
  100000 × 64 (`tail`), and the arguments end as they began (`run`).
-/
import proofs.«110859_j31190052504404_2_alg».proof.Proof.Gen.KernelIdeal.Frame
import proofs.«110859_j31190052504404_2_alg».proof.Proof.Body
import Idealize.ShloMosaic.Lib.Pipeline.Value
import Idealize.ShloMosaic.Lib.StableHlo.Run

set_option maxRecDepth 16384

noncomputable section

namespace Cert.Gin.Region

open Cert.KernelIdeal Cert.KernelIdeal.Gen Idealize.ShloMosaic Idealize.ShloMosaic.TcCoe Idealize.SL.Sem
open Idealize.ShloMosaic.Pipeline (Dat)
open Idealize.ShloMosaic.ValueIdx Cert.Gin

variable (m : (ℓ : Loc nD τ sig) → Buf (Elt Ideal) ℓ) (ρ : Dev nD → PrngReg)

theorem offset_zero : (![0, 0] : Fin 2 → Nat) = fun _ => 0 := funext fun a => by fin_cases a <;> rfl

/-- The packed arrangement of the arrays the region finds. -/
abbrev packedOut (c : Dev nD) : S50000x128.Idx → EReal :=
  packed (V m c main_v18) (V m c main_v22) (V m c main_v29) (V m c main_v26) (V m c main_v30) Body.floor0

/-- The printed index maps over the grid: the features' and the output's blocks move together down the rows and stay on
    lane block 0; the matrices' and bias rows' blocks stay at the origin; there are ten row blocks. -/
theorem index_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every row block is some point's. -/
theorem index_onto : ∀ q0 : Fin 10, ∃ t : Fin cfg0.N, win0_5.index t = ![q0.val, 0] :=
  (by decide +kernel : ∀ q0 : Fin 10, ∃ t : Fin grid0.N, win0_5.index t = ![q0.val, 0])

/-- WHAT POINT t WRITES BACK is block t of the packed arrangement of the arrays the region finds. -/
theorem flushed_eq (c : Dev nD) (t : Fin cfg0.N) :
    (dats m 0 c).flushed 5 t = ((cfg0.win 5).blk t).view.read (Elt Ideal) (packedOut m c) := by
  show (cfg0.win 5).cut (grid0.coords t) ((dats m 0 c).after 5 t) = _
  rw [after0_5]
  unfold out0_5
  rw [View.canon_unit_zero offset_zero]
  simp only [View.ld_unit_zero (S := S5000x128) offset_zero, View.ld_unit_zero (S := S128x128) offset_zero,
    View.ld_unit_zero (S := S1x128) offset_zero]
  obtain ⟨e00, e01, e10, e11, e20, e21, e30, e31, e40, e41, e51, e5b⟩ := index_facts t
  funext y
  obtain ⟨p, q, rfl⟩ : ∃ (p : Fin 5000) (q : Fin 128), y = ix2 p q := ⟨y 0, y 1, eq_ix2 y⟩
  have hp := p.isLt
  have hR : win0_5.index t (0 : Fin 2) * 5000 + p.val < 50000 := by omega
  have hE : ((cfg0.win 5).blk t).view.emb (ix2 p q) = ix2 (⟨win0_5.index t (0 : Fin 2) * 5000 + p.val, hR⟩ : Fin 50000) q := by
    funext a; apply Fin.ext
    match a with
    | ⟨0, _⟩ => show win0_5.index t (0 : Fin 2) * 5000 + 1 * p.val = win0_5.index t (0 : Fin 2) * 5000 + p.val; omega
    | ⟨1, _⟩ => show win0_5.index t (1 : Fin 2) * 128 + 1 * q.val = q.val; omega
  show k0_pay1 (iblk m c 0 t) (iblk m c 1 t) (iblk m c 2 t) (iblk m c 3 t) (iblk m c 4 t) (ix2 p q)
    = packedOut m c (((cfg0.win 5).blk t).view.emb (ix2 p q))
  rw [hE]
  refine Body.payload_eq_packed (iblk m c 0 t) (iblk m c 1 t) (iblk m c 2 t) (iblk m c 3 t) (iblk m c 4 t)
    (V m c main_v18) (V m c main_v22) (V m c main_v29) (V m c main_v26) (V m c main_v30) p q _ ?_ ?_ ?_ ?_ ?_
  · intro j
    show V m c main_v18 (((cfg0.win 0).blk t).view.emb (ix2 p j)) = V m c main_v18 (ix2 _ j)
    refine congrArg (V m c main_v18) (funext fun a => Fin.ext ?_)
    match a with
    | ⟨0, _⟩ => show win0_0.index t (0 : Fin 2) * 5000 + 1 * p.val = win0_5.index t (0 : Fin 2) * 5000 + p.val; omega
    | ⟨1, _⟩ => show win0_0.index t (1 : Fin 2) * 128 + 1 * j.val = j.val; omega
  · intro j k
    show V m c main_v22 (((cfg0.win 1).blk t).view.emb (ix2 j k)) = V m c main_v22 (ix2 j k)
    refine congrArg (V m c main_v22) (funext fun a => Fin.ext ?_)
    match a with
    | ⟨0, _⟩ => show win0_1.index t (0 : Fin 2) * 128 + 1 * j.val = j.val; omega
    | ⟨1, _⟩ => show win0_1.index t (1 : Fin 2) * 128 + 1 * k.val = k.val; omega
  · intro k
    show V m c main_v29 (((cfg0.win 2).blk t).view.emb (ix2 (0 : Fin 1) k)) = V m c main_v29 (ix2 (0 : Fin 1) k)
    refine congrArg (V m c main_v29) (funext fun a => Fin.ext ?_)
    match a with
    | ⟨0, _⟩ => show win0_2.index t (0 : Fin 2) * 1 + 1 * 0 = 0; omega
    | ⟨1, _⟩ => show win0_2.index t (1 : Fin 2) * 128 + 1 * k.val = k.val; omega
  · intro j k
    show V m c main_v26 (((cfg0.win 3).blk t).view.emb (ix2 j k)) = V m c main_v26 (ix2 j k)
    refine congrArg (V m c main_v26) (funext fun a => Fin.ext ?_)
    match a with
    | ⟨0, _⟩ => show win0_3.index t (0 : Fin 2) * 128 + 1 * j.val = j.val; omega
    | ⟨1, _⟩ => show win0_3.index t (1 : Fin 2) * 128 + 1 * k.val = k.val; omega
  · intro k
    show V m c main_v30 (((cfg0.win 4).blk t).view.emb (ix2 (0 : Fin 1) k)) = V m c main_v30 (ix2 (0 : Fin 1) k)
    refine congrArg (V m c main_v30) (funext fun a => Fin.ext ?_)
    match a with
    | ⟨0, _⟩ => show win0_4.index t (0 : Fin 2) * 1 + 1 * 0 = 0; omega
    | ⟨1, _⟩ => show win0_4.index t (1 : Fin 2) * 128 + 1 * k.val = k.val; omega

/-- An index of the output array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v31).slice (win0_5.rect t)).set ↔ _
  rw [View.set_slice_whole, Rect.mem_set_unit]
  exact Iff.rfl

/-- The ten blocks tile the array: row R is in block R / 5000. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := index_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY after the region is the packed arrangement of the arrays the region finds. -/
theorem final (c : Dev nD) : (dats m 0 c).arrAt 5 cfg0.N = packedOut m c :=
  (dats m 0 c).arrAt_eq_of_cover 5 (packedOut m c) (fun t _ => flushed_eq m c t) cover

/-- THE RESULT: the line after the region views the output array as 100000 rows of 64. -/
theorem tail (c : Dev nD) :
    Pipeline.afterTail₀ cfgs (dats m) 0 (V0 m) [hostOps1] c main_v32
      = shapeCast S100000x64 (packedOut m c) shapeCasts_S50000x128_S100000x64 := by
  have hw := (Pipeline.withArrays_arr spec0 launch0.win.arr_inj c (V0 m c) (fun w => (dats m 0 c).arrAt w cfg0.N) 5).trans (final m c)
  unfold Pipeline.afterTail₀
  show StableHlo.after hostOps1 _ (Proc.devRef .tc main_v32) = _
  after_results
  exact congrArg (fun A : S50000x128.Idx → EReal => shapeCast S100000x64 A shapeCasts_S50000x128_S100000x64) hw

/-- THE KERNEL'S RUN: every weakly fair execution terminates with the result at the packed arrangement of the arrays the
    region finds, viewed as 100000 rows of 64, and the arguments unchanged. -/
theorem run : θ_run defs (onTc (τ := τ) (main (F := Ideal))) ⟨m, fun _ => 0, ρ⟩ fun r => ∀ c : Dev nD,
      r.2.mem ((c.tc : Thread nD τ).loc main_v32) = shapeCast S100000x64 (packedOut m c) shapeCasts_S50000x128_S100000x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v32 (Pipeline.mem_restRefs_of main_v32 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.Gin.Region

end
-- ==== Proof.Operands.lean ====
/-
  What the region finds in its five input arrays: each as a named function of the program's arguments, and read at an index.

  Before the region the host program builds, from the arguments x (features), e (edge list), W1, b1, W2, b2:
    * the aggregated features h = x with, for every edge, the source row added into the destination row, both endpoints
      read python-style (a negative id counts from the end: `wrap`), re-viewed as 50000 rows of 128 lanes (`features`):
      packed row r, lane 64·s + j is row 2r + s, column j of h — both are position (2r + s)·64 + j of the same row-major order;
    * the block-diagonal matrices diag(W, W), as [[W, 0], [0, W]] by two lane-wise and one row-wise concatenation (`blockdiag`):
      entry (64·s + j, 64·s' + k) is W(j, k) when s = s' and 0 otherwise;
    * the bias rows (b | b), a concatenation viewed as a 1 × 128 row (`bias2`): lane 64·s + k holds b(k).
-/
import proofs.«110859_j31190052504404_2_alg».proof.Proof.Gen.KernelIdeal.Frame
import proofs.«110859_j31190052504404_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.Gin.Operands

open Cert.KernelIdeal Cert.KernelIdeal.Gen Idealize.ShloMosaic Idealize.ShloMosaic.TcCoe Idealize.SL.Sem
open Idealize.ShloMosaic.StableHlo Idealize.ShloMosaic.ValueIdx Cert.Gin

/-! ## Concatenations of two equal halves, read at a half's coordinates -/

section Halves
variable {α : Type}

theorem fin2_cases (s : Fin 2) : s = 0 ∨ s = 1 := by
  rcases s with ⟨v, hv⟩
  interval_cases v
  · exact Or.inl rfl
  · exact Or.inr rfl

/-- Two 64 × 64 matrices side by side: lane 64·s + k of row j is entry (j, k) of the s-th. -/
theorem concat_lanes (A B : (⟨2, ![64, 64]⟩ : Shape).Idx → α)
    (h : Shape.Concatenates [(⟨2, ![64, 64]⟩ : Shape), ⟨2, ![64, 64]⟩] ⟨2, ![64, 128]⟩ 1) (j : Fin 64) (s : Fin 2) (k : Fin 64) :
    concatenate ⟨2, ![64, 128]⟩ 1 [⟨⟨2, ![64, 64]⟩, A⟩, ⟨⟨2, ![64, 64]⟩, B⟩] h (ix2 j (col s k))
      = if s = 0 then A (ix2 j k) else B (ix2 j k) := by
  rcases fin2_cases s with rfl | rfl
  · rw [if_pos rfl]
    exact concatenate_pair_apply_left 1 A B h (ix2 j (col 0 k)) rfl (ix2 j k) (fun b => by
      match b with
      | ⟨0, _⟩ => rfl
      | ⟨1, _⟩ => show k.val = 64 * 0 + k.val; omega)
  · rw [if_neg (by decide)]
    exact concatenate_pair_apply_right 1 A B h (ix2 j (col 1 k)) rfl rfl (ix2 j k) (fun b hb => by
      match b with
      | ⟨0, _⟩ => rfl
      | ⟨1, _⟩ => exact absurd rfl hb) (by show k.val + 64 = 64 * 1 + k.val; omega)

/-- Two 64 × 128 matrices one above the other: row 64·s + j is row j of the s-th. -/
theorem concat_rows (A B : (⟨2, ![64, 128]⟩ : Shape).Idx → α)
    (h : Shape.Concatenates [(⟨2, ![64, 128]⟩ : Shape), ⟨2, ![64, 128]⟩] ⟨2, ![128, 128]⟩ 0) (s : Fin 2) (j : Fin 64) (c : Fin 128) :
    concatenate ⟨2, ![128, 128]⟩ 0 [⟨⟨2, ![64, 128]⟩, A⟩, ⟨⟨2, ![64, 128]⟩, B⟩] h (ix2 (col s j) c)
      = if s = 0 then A (ix2 j c) else B (ix2 j c) := by
  rcases fin2_cases s with rfl | rfl
  · rw [if_pos rfl]
    exact concatenate_pair_apply_left 0 A B h (ix2 (col 0 j) c) rfl (ix2 j c) (fun b => by
      match b with
      | ⟨0, _⟩ => show j.val = 64 * 0 + j.val; omega
      | ⟨1, _⟩ => rfl)
  · rw [if_neg (by decide)]
    exact concatenate_pair_apply_right 0 A B h (ix2 (col 1 j) c) rfl rfl (ix2 j c) (fun b hb => by
      match b with
      | ⟨0, _⟩ => exact absurd rfl hb
      | ⟨1, _⟩ => rfl) (by show j.val + 64 = 64 * 1 + j.val; omega)

/-- Two vectors of 64 end to end: entry 64·s + k is entry k of the s-th. -/
theorem concat_vec (A B : (⟨1, ![64]⟩ : Shape).Idx → α)
    (h : Shape.Concatenates [(⟨1, ![64]⟩ : Shape), ⟨1, ![64]⟩] ⟨1, ![128]⟩ 0) (s : Fin 2) (k : Fin 64) :
    concatenate ⟨1, ![128]⟩ 0 [⟨⟨1, ![64]⟩, A⟩, ⟨⟨1, ![64]⟩, B⟩] h (ix1 (col s k))
      = if s = 0 then A (ix1 k) else B (ix1 k) := by
  rcases fin2_cases s with rfl | rfl
  · rw [if_pos rfl]
    exact concatenate_pair_apply_left 0 A B h (ix1 (col 0 k)) rfl (ix1 k) (fun b => by
      match b with
      | ⟨0, _⟩ => show k.val = 64 * 0 + k.val; omega)
  · rw [if_neg (by decide)]
    exact concatenate_pair_apply_right 0 A B h (ix1 (col 1 k)) rfl rfl (ix1 k) (fun b hb => by
      match b with
      | ⟨0, _⟩ => exact absurd rfl hb) (by show k.val + 64 = 64 * 1 + k.val; omega)

end Halves

/-! ## The operands as functions of the arguments -/

/-- The edges' source ids: row 0 of the edge list. -/
def srcIds (e : IVec S2x1600000 32) : IVec S1600000 32 :=
  shapeCast S1600000 (extractStridedSlice S1x1600000 ![0, 0] e slices_S2x1600000_S1x1600000_0_0) shapeCasts_S1x1600000_S1600000
/-- The edges' destination ids: row 1 of the edge list. -/
def dstIds (e : IVec S2x1600000 32) : IVec S1600000 32 :=
  shapeCast S1600000 (extractStridedSlice S1x1600000 ![1, 0] e slices_S2x1600000_S1x1600000_1_0) shapeCasts_S1x1600000_S1600000
/-- An id read python-style: a negative id counts from the end of the 100000 rows. -/
def wrap (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v
/-- One row of x per edge: the source's. -/
def neighbours (x : FVec Ideal S100000x64 .f32) (e : IVec S2x1600000 32) : FVec Ideal S1600000x64 .f32 :=
  Host.gather gather_S100000x64_S1600000x1_S1600000x64_1_0_n_n_0_1_164 x
    (broadcastInDim S1600000x1 ![0] bcast_S1600000_S1600000x1_0 (wrap (srcIds e)))
/-- The aggregated features: x with every edge's source row added into the row its (python-style) destination id names. -/
def aggregated (x : FVec Ideal S100000x64 .f32) (e : IVec S2x1600000 32) : FVec Ideal S100000x64 .f32 :=
  Host.scatterAdd scatter_S100000x64_S1600000x1_S1600000x64_1_0_0_1 x
    (broadcastInDim S1600000x1 ![0] bcast_S1600000_S1600000x1_0 (wrap (dstIds e))) (neighbours x e)
/-- The aggregated features as 50000 rows of 128 lanes. -/
def features (x : FVec Ideal S100000x64 .f32) (e : IVec S2x1600000 32) : FVec Ideal S50000x128 .f32 :=
  shapeCast S50000x128 (aggregated x e) shapeCasts_S100000x64_S50000x128

/-- The 64 × 64 matrix of zeros. -/
def zeros : FVec Ideal S64x64 .f32 := broadcastInDim S64x64 ![] bcast_S_S64x64 (constant S_ .f32 0x00000000#32)
/-- diag(W, W). -/
def blockdiag (W : FVec Ideal S64x64 .f32) : FVec Ideal S128x128 .f32 :=
  concatenate S128x128 0
    [⟨S64x128, concatenate S64x128 1 [⟨S64x64, W⟩, ⟨S64x64, zeros⟩] concatenates_S64x64_S64x64_S64x128_d1⟩,
     ⟨S64x128, concatenate S64x128 1 [⟨S64x64, zeros⟩, ⟨S64x64, W⟩] concatenates_S64x64_S64x64_S64x128_d1⟩]
    concatenates_S64x128_S64x128_S128x128_d0
/-- (b | b) as a row. -/
def bias2 (b : FVec Ideal S64 .f32) : FVec Ideal S1x128 .f32 :=
  shapeCast S1x128 (concatenate S128 0 [⟨S64, b⟩, ⟨S64, b⟩] concatenates_S64_S64_S128_d0) shapeCasts_S128_S1x128

/-! ## Read at an index -/

theorem features_apply (x : FVec Ideal S100000x64 .f32) (e : IVec S2x1600000 32) (r : Fin 50000) (s : Fin 2) (j : Fin 64) :
    features x e (ix2 r (col s j)) = aggregated x e (ix2 (row r s) j) := by
  unfold features
  refine shapeCast_apply _ shapeCasts_S100000x64_S50000x128 _ _ ?_
  rw [Shape.rowMajor_val_two, Shape.rowMajor_val_two]
  show (2 * r.val + s.val) * 64 + j.val = r.val * 128 + (64 * s.val + j.val)
  omega

theorem zeros_apply (i : S64x64.Idx) : zeros i = 0 := by
  unfold zeros
  rw [broadcastInDim_apply ![] bcast_S_S64x64 _ i ix0 (fun a => a.elim0), constant_apply, Ideal.ofBits_zero_f32]

theorem blockdiag_apply (W : FVec Ideal S64x64 .f32) (s s' : Fin 2) (j k : Fin 64) :
    blockdiag W (ix2 (col s j) (col s' k)) = if s = s' then W (ix2 j k) else 0 := by
  unfold blockdiag
  rw [concat_rows, concat_lanes, concat_lanes, zeros_apply]
  rcases fin2_cases s with rfl | rfl <;> rcases fin2_cases s' with rfl | rfl <;> simp

theorem bias2_apply (b : FVec Ideal S64 .f32) (s : Fin 2) (k : Fin 64) :
    bias2 b (ix2 (0 : Fin 1) (col s k)) = b (ix1 k) := by
  unfold bias2
  rw [shapeCast_a_1a_apply, concat_vec]
  split <;> rfl

/-! ## The region's arrays -/

variable (m : (ℓ : Loc nD τ sig) → Buf (Elt Ideal) ℓ) (c : Dev nD)

theorem V_features : (V m c main_v18 : S50000x128.Idx → EReal)
    = features (m ((c : Thread nD τ).loc main_arg0)) (m ((c : Thread nD τ).loc main_arg1)) := by
  show StableHlo.after hostOps0 (fun b => m (c, b)) (Proc.devRef .tc main_v18) = _
  after_results_simp
  rfl

theorem V_w1 : (V m c main_v22 : S128x128.Idx → EReal) = blockdiag (m ((c : Thread nD τ).loc main_arg2)) := by
  show StableHlo.after hostOps0 (fun b => m (c, b)) (Proc.devRef .tc main_v22) = _
  after_results_simp
  rfl

theorem V_b1 : (V m c main_v29 : S1x128.Idx → EReal) = bias2 (m ((c : Thread nD τ).loc main_arg3)) := by
  show StableHlo.after hostOps0 (fun b => m (c, b)) (Proc.devRef .tc main_v29) = _
  after_results_simp
  rfl

theorem V_w2 : (V m c main_v26 : S128x128.Idx → EReal) = blockdiag (m ((c : Thread nD τ).loc main_arg4)) := by
  show StableHlo.after hostOps0 (fun b => m (c, b)) (Proc.devRef .tc main_v26) = _
  after_results_simp
  rfl

theorem V_b2 : (V m c main_v30 : S1x128.Idx → EReal) = bias2 (m ((c : Thread nD τ).loc main_arg5)) := by
  show StableHlo.after hostOps0 (fun b => m (c, b)) (Proc.devRef .tc main_v30) = _
  after_results_simp
  rfl

end Cert.Gin.Operands

end
-- ==== Proof.Bridge.lean ====
/-
  The kernel's result is the two-layer perceptron of its aggregated features, row by row.

  The result is the region's output array, the packed arrangement of what the region finds, viewed as 100000 rows of 64:
  row 2r + s, column d of the result is packed row r, lane 64·s + d (both are position (2r + s)·64 + d in row-major order).
  What the region finds is the aggregated features two rows to a packed row, diag(W1, W1), (b1 | b1), diag(W2, W2) and
  (b2 | b2) (`Operands`), so by the block-diagonal law (`Spec.packed_eq_mlp`) that entry is the row-by-row perceptron's.
-/
import proofs.«110859_j31190052504404_2_alg».proof.Proof.Region
import proofs.«110859_j31190052504404_2_alg».proof.Proof.Operands

noncomputable section

namespace Cert.Gin.Bridge

open Cert.KernelIdeal Cert.KernelIdeal.Gen Idealize.ShloMosaic Idealize.ShloMosaic.TcCoe Idealize.SL.Sem
open Idealize.ShloMosaic.ValueIdx Cert.Gin Cert.Gin.Operands

variable (m : (ℓ : Loc nD τ sig) → Buf (Elt Ideal) ℓ)

theorem kernel_result (c : Dev nD) :
    shapeCast S100000x64 (Region.packedOut m c) shapeCasts_S50000x128_S100000x64
      = mlp (aggregated (m ((c : Thread nD τ).loc main_arg0)) (m ((c : Thread nD τ).loc main_arg1)))
          (m ((c : Thread nD τ).loc main_arg2)) (m ((c : Thread nD τ).loc main_arg3))
          (m ((c : Thread nD τ).loc main_arg4)) (m ((c : Thread nD τ).loc main_arg5)) Body.floor0 := by
  funext i
  obtain ⟨i0, d, rfl⟩ : ∃ (i0 : Fin 100000) (d : Fin 64), i = ix2 i0 d := ⟨i 0, i 1, eq_ix2 i⟩
  obtain ⟨r, s, rfl⟩ := exists_row i0
  rw [shapeCast_apply (Region.packedOut m c) shapeCasts_S50000x128_S100000x64 (ix2 (row r s) d) (ix2 r (col s d)) (by
    rw [Shape.rowMajor_val_two, Shape.rowMajor_val_two]
    show r.val * 128 + (64 * s.val + d.val) = (2 * r.val + s.val) * 64 + d.val
    omega)]
  show packed (V m c main_v18) (V m c main_v22) (V m c main_v29) (V m c main_v26) (V m c main_v30) Body.floor0 (ix2 r (col s d)) = _
  rw [V_features, V_w1, V_b1, V_w2, V_b2]
  exact packed_eq_mlp _ _ _ _ _ _ _ _ _ _ _ (fun r s j => features_apply _ _ r s j) (blockdiag_apply _) (bias2_apply _)
    (blockdiag_apply _) (bias2_apply _) r s d

end Cert.Gin.Bridge

end
-- ==== Proof.Aggregate.lean ====
/-
  The two programs aggregate the same features when no destination id is negative.

  On the extended reals the accumulating scatter of updates u at row ids d into a base array a is, entry by entry,
  a(i) + Σ { u(j) : update j lands on entry i }, an update whose id is outside the rows landing nowhere. One program
  scatters into the features x themselves after reading every destination id python-style (a negative id d becomes
  d + 100000); the other scatters the same updates at the raw ids into zeros and adds x afterwards. A raw negative id lands
  nowhere while its python-style reading may land on a row, so the two differ on a negative id; when every destination id
  is at least 0 the python-style reading changes nothing (`wrap_of_nonneg`), the two scatters have the same updates at the
  same ids, and x(i) + Σ is x(i) + (0 + Σ) (`aggregated_eq`).
-/
import proofs.«110859_j31190052504404_2_alg».proof.Proof.Operands
import proofs.«110859_j31190052504404_2_alg».proof.Proof.Gen.ReferenceIdeal.Read
import Idealize.ShloMosaic.Lib.Affine

noncomputable section

namespace Cert.Gin.Aggregate

open Idealize.ShloMosaic Idealize.ShloMosaic.ValueIdx Cert.Gin Cert.Gin.Operands

/-- A word that is at least another, signed, is not below it. -/
theorem not_slt_of_sge (x y : BitVec 32) (h : IntOp.cmpi .sge x y = 1#1) : IntOp.cmpi .slt x y = 0#1 :=
  eq_zero_of_ne_one fun h' => by
    have a := IntOp.cmpi_sge.1 h
    have b := IntOp.cmpi_slt.1 h'
    omega

/-- Every destination id is at least 0, as the signed comparison of the id vector with the zero vector says it. -/
def DstNonneg (e : IVec Cert.KernelIdeal.S2x1600000 32) : Prop :=
  ∀ i, cmpi .sge (dstIds e)
    (broadcastInDim Cert.KernelIdeal.S1600000 ![] Cert.KernelIdeal.Gen.bcast_S_S1600000 (constantI Cert.KernelIdeal.S_ 32 0#32)) i = 1#1

/-- Read python-style, an id vector with no negative entry is itself. -/
theorem wrap_of_nonneg (e : IVec Cert.KernelIdeal.S2x1600000 32) (h : DstNonneg e) : wrap (dstIds e) = dstIds e := by
  funext i
  unfold wrap
  rw [select_apply]
  have h0 : cmpi .slt (dstIds e)
      (broadcastInDim Cert.KernelIdeal.S1600000 ![] Cert.KernelIdeal.Gen.bcast_S_S1600000 (constantI Cert.KernelIdeal.S_ 32 0#32)) i = 0#1 :=
    not_slt_of_sge _ _ (h i)
  rw [h0, select_zero]

/-- Scattering into a base array is the base plus scattering into an array of zeros. -/
theorem scatter_base {s si su : Shape} (d : ScatterDims s si su) {w : Nat} (x z : FVec Ideal s .f32) (idx : IVec si w)
    (upd : FVec Ideal su .f32) (hz : ∀ i, z i = 0) :
    Host.scatterAdd d x idx upd = addf x (Host.scatterAdd d z idx upd) := by
  funext i
  show Ideal.hostScatterAdd d x idx upd i = x i + Ideal.hostScatterAdd d z idx upd i
  unfold Ideal.hostScatterAdd
  rw [hz, zero_add]

/-! The two printed programs spell the same operands: the dimension records, the id vectors and the gathered rows agree
    term by term. -/

theorem scatterDims_eq : Cert.KernelIdeal.scatter_S100000x64_S1600000x1_S1600000x64_1_0_0_1
    = Cert.ReferenceIdeal.scatter_S100000x64_S1600000x1_S1600000x64_1_0_0_1 := rfl

theorem gatherDims_eq : Cert.KernelIdeal.gather_S100000x64_S1600000x1_S1600000x64_1_0_n_n_0_1_164
    = Cert.ReferenceIdeal.gather_S100000x64_S1600000x1_S1600000x64_1_0_n_n_0_1_164 := rfl

theorem dstIds_eq (e : IVec Cert.KernelIdeal.S2x1600000 32) : dstIds e = Cert.ReferenceIdeal.Read.val_main_v3 (F := Ideal) e := rfl

theorem srcIds_eq (e : IVec Cert.KernelIdeal.S2x1600000 32) : srcIds e = Cert.ReferenceIdeal.Read.val_main_v1 (F := Ideal) e := rfl

theorem wrap_src_eq (e : IVec Cert.KernelIdeal.S2x1600000 32) : wrap (srcIds e) = Cert.ReferenceIdeal.Read.val_main_v8 (F := Ideal) e := by
  rw [srcIds_eq]
  rfl

theorem neighbours_eq (x : FVec Ideal Cert.KernelIdeal.S100000x64 .f32) (e : IVec Cert.KernelIdeal.S2x1600000 32) :
    neighbours x e = Cert.ReferenceIdeal.Read.val_main_v10 (F := Ideal) x e := by
  unfold neighbours Cert.ReferenceIdeal.Read.val_main_v10 Cert.ReferenceIdeal.Read.val_main_v9
  rw [gatherDims_eq, wrap_src_eq]

theorem zeros_ref (i : Cert.ReferenceIdeal.S100000x64.Idx) : Cert.ReferenceIdeal.Read.val_main_v11 (F := Ideal) i = 0 := by
  rw [Cert.ReferenceIdeal.Read.val_main_v11_apply, Cert.ReferenceIdeal.Read.val_main_cst_apply]
  exact Ideal.ofBits_zero_f32

/-- THE AGGREGATED FEATURES of the two programs are one array when no destination id is negative. -/
theorem aggregated_eq (x : FVec Ideal Cert.KernelIdeal.S100000x64 .f32) (e : IVec Cert.KernelIdeal.S2x1600000 32) (h : DstNonneg e) :
    aggregated x e = Cert.ReferenceIdeal.Read.val_main_v14 (F := Ideal) x e := by
  unfold aggregated Cert.ReferenceIdeal.Read.val_main_v14 Cert.ReferenceIdeal.Read.val_main_v13 Cert.ReferenceIdeal.Read.val_main_v12
  rw [wrap_of_nonneg e h, neighbours_eq, dstIds_eq, scatterDims_eq,
    scatter_base _ x (Cert.ReferenceIdeal.Read.val_main_v11 (F := Ideal)) _ _ zeros_ref]

end Cert.Gin.Aggregate

end
-- ==== Proof.Domain.lean ====
/-
  The precondition, read: no destination id is negative.

  The precondition is a conjunction, as one bit, of "every entry is finite" for each float argument and of
  "every destination id is at least 0": row 1 of the edge list compared, signed, with zero, and the comparison's bits
  reduced by `and`. The whole bit being 1 makes the last conjunct's bit 1, and an `and`-reduction that is 1 had a 1 at
  every index.
-/
import proofs.«110859_j31190052504404_2_alg».proof.Pre_finite_inputs
import proofs.«110859_j31190052504404_2_alg».proof.Proof.Gen.Pre_finite_inputs
import proofs.«110859_j31190052504404_2_alg».proof.Proof.Aggregate
import Idealize.ShloMosaic.Lib.ReduceAll
import Idealize.ShloMosaic.Lib.Affine

noncomputable section

namespace Cert.Gin.Domain

open Idealize.ShloMosaic Idealize.ShloMosaic.ValueIdx Cert.Gin

instance : Subsingleton Cert.Pre_finite_inputs.S_.Idx := ⟨fun a b => funext fun d => d.elim0⟩

theorem dst_nonneg (x0 : FVec Ideal Cert.Pre_finite_inputs.S100000x64 .f32) (e : IVec Cert.Pre_finite_inputs.S2x1600000 32)
    (x2 : FVec Ideal Cert.Pre_finite_inputs.S64x64 .f32) (x3 : FVec Ideal Cert.Pre_finite_inputs.S64 .f32)
    (x4 : FVec Ideal Cert.Pre_finite_inputs.S64x64 .f32) (x5 : FVec Ideal Cert.Pre_finite_inputs.S64 .f32)
    (h : Cert.Pre_finite_inputs.fn (F := Ideal) x0 e x2 x3 x4 x5 = fun _ => 1#1) : Aggregate.DstNonneg e := by
  intro i
  have h0 := congrFun h ix0
  dsimp only [Cert.Pre_finite_inputs.fn, Cert.Pre_finite_inputs.fn_part1] at h0
  have h1 := (IntOp.andi_eq_one.1 h0).2
  exact Host.reduce_andi_all _ _ _ _ _ h1 i

end Cert.Gin.Domain

end
-- ==== Proof.RefSpec.lean ====
/-
  The reference's result is the two-layer perceptron of its aggregated features, row by row.

  After aggregating (h = x + the scattered neighbour rows), the reference computes max(h · W1 + b1, 0) · W2 + b2 with the
  host's matrix products and the biases broadcast along the rows. Read at row r, column d, each product is the sum over
  the contracted column and each broadcast bias is the bias entry of the column, so the result is `Spec.mlp` of h.
-/
import proofs.«110859_j31190052504404_2_alg».proof.Proof.Gen.ReferenceIdeal.Read
import proofs.«110859_j31190052504404_2_alg».proof.Proof.Spec

noncomputable section

open scoped BigOperators

namespace Cert.Gin.RefSpec

open Cert.ReferenceIdeal Cert.ReferenceIdeal.Read Idealize.ShloMosaic Idealize.ShloMosaic.ValueIdx Cert.Gin

theorem ref_eq_mlp (x0 : FVec Ideal S100000x64 .f32) (x1 : IVec S2x1600000 32) (x2 : FVec Ideal S64x64 .f32)
    (x3 : FVec Ideal S64 .f32) (x4 : FVec Ideal S64x64 .f32) (x5 : FVec Ideal S64 .f32) :
    val_main_v23 (F := Ideal) x0 x1 x2 x3 x4 x5
      = mlp (val_main_v14 (F := Ideal) x0 x1) x2 x3 x4 x5 (Ideal.ofBits .f32 0x00000000#32) := by
  funext i
  obtain ⟨r, d, rfl⟩ : ∃ (r : Fin 100000) (d : Fin 64), i = ix2 r d := ⟨i 0, i 1, eq_ix2 i⟩
  have hl20 : ∀ k : Fin 64, lidx_main_v20 (ix2 r d) k = ix2 r k := fun k => funext fun a => by
    match a with | ⟨0, _⟩ => rfl | ⟨1, _⟩ => rfl
  have hr20 : ∀ k : Fin 64, ridx_main_v20 (ix2 r d) k = ix2 k d := fun k => funext fun a => by
    match a with | ⟨0, _⟩ => rfl | ⟨1, _⟩ => rfl
  have hl15 : ∀ k j : Fin 64, lidx_main_v15 (ix2 r k) j = ix2 r j := fun k j => funext fun a => by
    match a with | ⟨0, _⟩ => rfl | ⟨1, _⟩ => rfl
  have hr15 : ∀ k j : Fin 64, ridx_main_v15 (ix2 r k) j = ix2 j k := fun k j => funext fun a => by
    match a with | ⟨0, _⟩ => rfl | ⟨1, _⟩ => rfl
  have h22 : idx_main_v21 (idx_main_v22 (ix2 r d)) = ix1 d := funext fun a => by
    match a with | ⟨0, _⟩ => rfl
  have h17 : ∀ k : Fin 64, idx_main_v16 (idx_main_v17 (ix2 r k)) = ix1 k := fun k => funext fun a => by
    match a with | ⟨0, _⟩ => rfl
  rw [val_main_v23_apply, val_main_v20_apply, val_main_v22_apply, val_main_v21_apply, h22]
  simp only [hl20, hr20]
  show (∑ k : Fin 64, val_main_v19 (F := Ideal) x0 x1 x2 x3 (ix2 r k) * x4 (ix2 k d)) + x5 (ix1 d)
    = (∑ k : Fin 64, hid (val_main_v14 (F := Ideal) x0 x1) x2 x3 (Ideal.ofBits .f32 0x00000000#32) r k * x4 (ix2 k d)) + x5 (ix1 d)
  refine congrArg (· + x5 (ix1 d)) (Finset.sum_congr rfl fun k _ => ?_)
  rw [val_main_v19_apply, val_main_v18_apply, val_main_v15_apply, val_main_v17_apply, val_main_v16_apply, h17 k,
    val_main_call0_v0_apply, val_main_call0_cst_apply]
  simp only [hl15, hr15]
  rfl

end Cert.Gin.RefSpec

end
-- ==== Proof.lean ====
/-
  A graph-isomorphism layer: a packed, block-diagonal perceptron kernel against the row-by-row reference.

  Both programs first aggregate the features, h = x plus, for every edge, the source row added into the destination row,
  and then apply the perceptron max(h · W1 + b1, 0) · W2 + b2 to every row. They differ in two ways.

  The aggregation. One program scatters the neighbour rows into x itself, reading every destination id python-style
  (a negative id counts from the end); the other scatters them at the raw ids into zeros and adds x. A raw negative id lands
  nowhere, so the claim is stated where the reference's own indexing is in range on that side: every destination id is at
  least 0. There the python-style reading is the identity and, the extended reals' sum being exact, x(i) + Σ and
  x(i) + (0 + Σ) are one value (Proof/Aggregate.lean; the precondition read: Proof/Domain.lean).

  The perceptron. The kernel views two consecutive rows of h as one row of 128 lanes and multiplies by diag(W, W), with
  the bias repeated twice, in blocks of 5000 packed rows on the matrix unit with operands rounded to bf16, and views the
  result back as rows of 64. At the extended reals the rounding is the identity and the products are plain sums, so each
  block is a block of one array (Proof/Body.lean, Proof/Region.lean) whose entry at packed row r, lane 64·s + d is the
  reference's entry at row 2r + s, column d: of a row's 128 products against a block-diagonal column, the 64 against the
  zero block vanish — x · 0 = 0 for every extended real, so no finiteness is used (Proof/Spec.lean, Proof/Operands.lean,
  Proof/Bridge.lean). The reference read row by row is Proof/RefSpec.lean.

  The frames of the two kernel programs are the generated ones; the reference's is its generated run with the result dropped;
  the idealization rewrote nothing, so `preserves` is trivial.
-/
import proofs.«110859_j31190052504404_2_alg».proof.Defs
import proofs.«110859_j31190052504404_2_alg».proof.Proof.Gen.Kernel
import proofs.«110859_j31190052504404_2_alg».proof.Proof.Gen.Kernel.Skeleton
import proofs.«110859_j31190052504404_2_alg».proof.Proof.Gen.Kernel.Launch
import proofs.«110859_j31190052504404_2_alg».proof.Proof.Gen.Kernel.Points
import proofs.«110859_j31190052504404_2_alg».proof.Proof.Gen.Kernel.Frame
import proofs.«110859_j31190052504404_2_alg».proof.Proof.Gen.KernelIdeal
import proofs.«110859_j31190052504404_2_alg».proof.Proof.Gen.KernelIdeal.Skeleton
import proofs.«110859_j31190052504404_2_alg».proof.Proof.Gen.KernelIdeal.Launch
import proofs.«110859_j31190052504404_2_alg».proof.Proof.Gen.KernelIdeal.Points
import proofs.«110859_j31190052504404_2_alg».proof.Proof.Gen.KernelIdeal.Frame
import proofs.«110859_j31190052504404_2_alg».proof.Proof.Gen.ReferenceIdeal
import proofs.«110859_j31190052504404_2_alg».proof.Proof.Gen.Pre_finite_inputs
import proofs.«110859_j31190052504404_2_alg».proof.Proof.Gen.ReferenceIdeal.Run
import proofs.«110859_j31190052504404_2_alg».proof.Proof.Gen.ReferenceIdeal.Read
import proofs.«110859_j31190052504404_2_alg».proof.Proof.Bridge
import proofs.«110859_j31190052504404_2_alg».proof.Proof.Domain
import proofs.«110859_j31190052504404_2_alg».proof.Proof.RefSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with the perceptron of the aggregated features, row by row. -/
theorem algebraic : Cert.algebraic_KernelIdeal_ReferenceIdeal := by
  intro m ρ m' ρ' hpre hagree
  refine ⟨fun c => Cert.Gin.mlp
      (Cert.ReferenceIdeal.Read.val_main_v14 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      Cert.Gin.Body.floor0, ?_, ?_⟩
  · refine (θ_run Cert.KernelIdeal.defs _ _).mono (fun r h c => ⟨(h c).1.trans ?_, (h c).2⟩) (Cert.Gin.Region.run m ρ)
    rw [Cert.Gin.Bridge.kernel_result, Cert.Gin.Aggregate.aggregated_eq _ _ (Cert.Gin.Domain.dst_nonneg _ _ _ _ _ _ (hpre c))]
  · refine (θ_run Cert.ReferenceIdeal.defs _ _).mono (fun r h c => ⟨?_, (h c).2⟩)
      (Cert.ReferenceIdeal.Value.run (F := Ideal) m' ρ')
    rw [(h c).1, Cert.ReferenceIdeal.Read.val_main_v23_eq, Cert.Gin.RefSpec.ref_eq_mlp, (hagree c).1, (hagree c).2.1,
      (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
